-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S4096x4096 : Shape := ⟨2, ![4096, 4096]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x4096 .f32) (main_arg6 : FVec F S4096x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg6
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  main_v28

def fn {F : FTy → Type} [FloatOps F] (main_arg0 : FVec F S64x4096 .f32) (main_arg1 : FVec F S64x4096 .f32) (main_arg2 : FVec F S64x4096 .f32) (main_arg3 : FVec F S4096x4096 .f32) (main_arg4 : FVec F S4096x4096 .f32) (main_arg5 : IVec S4096x4096 1) (main_arg6 : FVec F S4096x4096 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64x4096 .f32 := Host.absf main_arg2
  let main_cst_2 : FVec F S_ .f32 := constant S_ .f32 0x7F800000#32
  let main_v10 : FVec F S64x4096 .f32 := broadcastInDim S64x4096 ![] bcast_S_S64x4096 main_cst_2
  let main_v11 : IVec S64x4096 1 := cmpf .olt main_v9 main_v10
  let main_c_3 : IVec S_ 1 := constantI S_ 1 1#1
  let main_v12 : IVec S_ 1 := (fun x v => Host.reduce IntOp.andi x v reducesTo_S64x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg6 main_v13 main_v16
-- ==== Kernel.lean ====
abbrev S64x4096 : Shape := ⟨2, ![64, 4096]⟩
abbrev S4096x4096 : Shape := ⟨2, ![4096, 4096]⟩
abbrev S_ : Shape := ⟨0, ![]⟩
abbrev S4096 : Shape := ⟨1, ![4096]⟩
abbrev S1x4096 : Shape := ⟨2, ![1, 4096]⟩
abbrev S512x512 : Shape := ⟨2, ![512, 512]⟩
abbrev S64x512 : Shape := ⟨2, ![64, 512]⟩
abbrev S1x512 : Shape := ⟨2, ![1, 512]⟩

abbrev nBuf : Space → Nat
  | .hbm => 31
  | .vmem => 26
  | .smem => 0
  | _ => 0

abbrev bufTy : (tb : Table) → Fin (tcTables nBuf tb) → BufTy
  | .hbm, ⟨0, _⟩ => ⟨S64x4096, .f32⟩
  | .hbm, ⟨1, _⟩ => ⟨S64x4096, .f32⟩
  | .hbm, ⟨2, _⟩ => ⟨S64x4096, .f32⟩
  | .hbm, ⟨3, _⟩ => ⟨S4096x4096, .f32⟩
  | .hbm, ⟨4, _⟩ => ⟨S4096x4096, .f32⟩
  | .hbm, ⟨5, _⟩ => ⟨S4096x4096, .i1⟩
  | .hbm, ⟨6, _⟩ => ⟨S4096x4096, .f32⟩
  | .hbm, ⟨7, _⟩ => ⟨S64x4096, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S1x4096, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S1x4096, .f32⟩
  | .hbm, ⟨22, _⟩ => ⟨S4096x4096, .i32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .i32⟩
  | .hbm, ⟨27, _⟩ => ⟨S_, .i32⟩
  | .hbm, ⟨28, _⟩ => ⟨S4096x4096, .i32⟩
  | .hbm, ⟨29, _⟩ => ⟨S4096x4096, .i1⟩
  | .hbm, ⟨30, _⟩ => ⟨S4096x4096, .i1⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .i32⟩
  | .local _ .vmem, ⟨5, _⟩ => ⟨S512x512, .i32⟩
  | .local _ .vmem, ⟨6, _⟩ => ⟨S512x512, .f32⟩
  | .local _ .vmem, ⟨7, _⟩ => ⟨S512x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .i32⟩
  | .local _ .vmem, ⟨25, _⟩ => ⟨S512x512, .i32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

class Facts₀ : Prop where
  reducesTo_S64x4096_S4096_d0 : S64x4096.ReducesTo [0] S4096
  h_S_ : 0 < S_.numel
  bcast_S_S4096 : S_.BroadcastsInDim S4096 (![] : Fin 0 → Fin S4096.rank)
  shapeCasts_S4096_S1x4096 : S4096.ShapeCasts S1x4096
  natLt_1_32 : 1 < 32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  bcast_S_S4096x4096 : S_.BroadcastsInDim S4096x4096 (![] : Fin 0 → Fin S4096x4096.rank)
  dot_S64x512_S64x512_S512x512_0_0_1_1_n_n_wf : DotDims.WF S64x512 S64x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .i32 = 32 ∨ (Rect.block (s := S4096x4096) S512x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .f32 = 32 ∨ (Rect.block (s := S4096x4096) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x512.size a ≤ S64x4096.size a
  hwx0_4 : ∀ i : grid0.Coords, EltTy.bits .f32 = 32 ∨ (Rect.block (s := S64x4096) S64x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x512.size a ≤ S64x4096.size a
  hwx0_5 : ∀ i : grid0.Coords, EltTy.bits .f32 = 32 ∨ (Rect.block (s := S64x4096) S64x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x512.size a ≤ S64x4096.size a
  hwx0_6 : ∀ i : grid0.Coords, EltTy.bits .f32 = 32 ∨ (Rect.block (s := S64x4096) S64x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x4096.size a
  hwx0_7 : ∀ i : grid0.Coords, EltTy.bits .f32 = 32 ∨ (Rect.block (s := S1x4096) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x4096.size a
  hwx0_8 : ∀ i : grid0.Coords, EltTy.bits .f32 = 32 ∨ (Rect.block (s := S1x4096) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S4096x4096.size a
  hwx0_9 : ∀ i : grid0.Coords, EltTy.bits .f32 = 32 ∨ (Rect.block (s := S4096x4096) S512x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S4096x4096.size a
  hwx0_10 : ∀ i : grid0.Coords, EltTy.bits .f32 = 32 ∨ (Rect.block (s := S4096x4096) S512x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S4096x4096.size a
  hwx0_11 : ∀ i : grid0.Coords, EltTy.bits .f32 = 32 ∨ (Rect.block (s := S4096x4096) S512x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S4096x4096.size a
  hwx0_12 : ∀ i : grid0.Coords, EltTy.bits .i32 = 32 ∨ (Rect.block (s := S4096x4096) S512x512.size (cc0_transform_12 i) (hinb0_12 i)).WholeWords (EltTy.packing .i32)

variable [Facts₀]

def dot_S64x512_S64x512_S512x512_0_0_1_1_n_n : DotDims S64x512 S64x512 S512x512 where
  lhsContracting := [0]
  rhsContracting := [0]
  lhsNonContracting := [1]
  rhsNonContracting := [1]
  lhsBatch := []
  rhsBatch := []
  wf := dot_S64x512_S64x512_S512x512_0_0_1_1_n_n_wf

abbrev win0_0 : Pipeline.Window sig grid0 :=
  Pipeline.Window.ofSpec (Memref.whole main_arg3) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S64x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S64x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg0) S64x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v12_0) S512x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v12_1) S512x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v12_2) S512x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v12_3) S512x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S64x4096 : Shape := ⟨2, ![64, 4096]⟩
abbrev S4096x4096 : Shape := ⟨2, ![4096, 4096]⟩
abbrev S_ : Shape := ⟨0, ![]⟩
abbrev S4096 : Shape := ⟨1, ![4096]⟩
abbrev S1x4096 : Shape := ⟨2, ![1, 4096]⟩

abbrev nBuf : Space → Nat
  | .hbm => 71
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S64x4096, .f32⟩
  | .hbm, ⟨2, _⟩ => ⟨S64x4096, .f32⟩
  | .hbm, ⟨3, _⟩ => ⟨S4096x4096, .f32⟩
  | .hbm, ⟨4, _⟩ => ⟨S4096x4096, .f32⟩
  | .hbm, ⟨5, _⟩ => ⟨S4096x4096, .i1⟩
  | .hbm, ⟨6, _⟩ => ⟨S4096x4096, .f32⟩
  | .hbm, ⟨7, _⟩ => ⟨S4096x4096, .f32⟩
  | .hbm, ⟨8, _⟩ => ⟨S64x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S1x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096, .f32⟩
  | .hbm, ⟨43, _⟩ => ⟨S1x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .i1⟩
  | .hbm, ⟨54, _⟩ => ⟨S4096x4096, .i1⟩
  | .hbm, ⟨55, _⟩ => ⟨S4096x4096, .i1⟩
  | .hbm, ⟨56, _⟩ => ⟨S_, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S4096x4096, .i1⟩
  | .hbm, ⟨61, _⟩ => ⟨S4096x4096, .f32⟩
  | .hbm, ⟨62, _⟩ => ⟨S_, .f32⟩
  | .hbm, ⟨63, _⟩ => ⟨S4096x4096, .f32⟩
  | .hbm, ⟨64, _⟩ => ⟨S4096x4096, .i1⟩
  | .hbm, ⟨65, _⟩ => ⟨S4096x4096, .i1⟩
  | .hbm, ⟨66, _⟩ => ⟨S_, .f32⟩
  | .hbm, ⟨67, _⟩ => ⟨S4096x4096, .f32⟩
  | .hbm, ⟨68, _⟩ => ⟨S4096x4096, .f32⟩
  | .hbm, ⟨69, _⟩ => ⟨S4096x4096, .i1⟩
  | .hbm, ⟨70, _⟩ => ⟨S4096x4096, .i1⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S64x4096_S4096_d0 : S64x4096.ReducesTo [0] S4096
  h_S_ : 0 < S_.numel
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S64x4096_S64x4096_S4096x4096_0_0_1_1_n_n_wf : DotDims.WF S64x4096 S64x4096 S4096x4096 [0] [0] [1] [1] [] []

variable [Facts₀]

def dot_S64x4096_S64x4096_S4096x4096_0_0_1_1_n_n : DotDims S64x4096 S64x4096 S4096x4096 where
  lhsContracting := [0]
  rhsContracting := [0]
  lhsNonContracting := [1]
  rhsNonContracting := [1]
  lhsBatch := []
  rhsBatch := []
  wf := dot_S64x4096_S64x4096_S4096x4096_0_0_1_1_n_n_wf

class Facts : Prop extends Facts₀ where

variable [Facts]
-- ==== Proof.PlasticityLaw.lean ====
/-
  The synaptic update, one synapse at a time, in the two arrangements the two programs compute it in, and the
  laws that identify them.

  For a synapse (i, j) write  b  for its connection bit,  w  its weight,  n  the fresh random weight,
  H = Σ_k (post·contrib)[k,i] · pre[k,j]  the Hebbian sum,  C = Σ_k post[k,i] · pre[k,j]  the correlation sum and
  a = mean_k pre[k,j].  With  conn = 1 if b else 0:

     clipped   = min 1 (max (-1) (w + (η'·H + μ'·|w|·w·a)·conn)) · conn
     formed    = (C / 64 > 1/2) ∧ ¬b
     candidate = if formed then n·σ else clipped
     linked    = b ∨ formed
     weak      = (|candidate| < θ) ∧ linked
     new w     = if weak then 0 else candidate          new mask = linked ∧ ¬weak
     energy    = γ·|w|·|a|                              new age  = age + conn

  One arrangement takes the bit as given, divides C by 64 and multiplies μ'·|w|·w·a from the left; the other receives
  the bit as a 32-bit word (zero or not), receives the column factors μ'·a and γ·|a| already multiplied, and
  multiplies C by 1/64. On the extended reals the two agree: products may be re-associated and commuted freely
  (no sum is distributed over), 1/64 is a dyadic so the two scalings of C are one function, and the word that is
  "not zero" exactly when the bit is set carries the same indicator.
-/
import Idealize.ShloMosaic.PureOps.Ideal
import Idealize.ShloMosaic.PureOps.Ideal.Laws
import Idealize.ShloMosaic.Lib.ValueIdx

noncomputable section

namespace Cert.Synapse

open Idealize.ShloMosaic Idealize.ShloMosaic.ValueIdx

/-! ## The literals -/

abbrev etaB : EReal := Ideal.ofBits .f32 0x3923D70A#32
abbrev muGamma : EReal := Ideal.ofBits .f32 0xBBA3D70A#32
abbrev gamma : EReal := Ideal.ofBits .f32 0x3D4CCCCD#32
abbrev negOne : EReal := Ideal.ofBits .f32 0xBF800000#32
abbrev posOne : EReal := Ideal.ofBits .f32 0x3F800000#32
abbrev sixtyFour : EReal := Ideal.ofBits .f32 0x42800000#32
abbrev sixtyFourth : EReal := Ideal.ofBits .f32 0x3C800000#32
abbrev half : EReal := Ideal.ofBits .f32 0x3F000000#32
abbrev small : EReal := Ideal.ofBits .f32 0x3C23D70A#32
abbrev zeroF : EReal := Ideal.ofBits .f32 0x00000000#32

/-- The absolute value and the two strict comparisons, at the ideal values of 32-bit floats. -/
abbrev absE (x : EReal) : EReal := FloatOps.absf (F := Ideal) (φ := .f32) x
abbrev gtE (x y : EReal) : BitVec 1 := FloatOps.cmpf (F := Ideal) (φ := .f32) .ogt x y
abbrev ltE (x y : EReal) : BitVec 1 := FloatOps.cmpf (F := Ideal) (φ := .f32) .olt x y

/-! ## The arrangement that takes the bit as given -/

/-- The connection indicator, 0 or 1, as an extended real. -/
def conn (b : BitVec 1) : EReal := FloatOps.uitofp (F := Ideal) .f32 b

def clipped (b : BitVec 1) (w H a : EReal) : EReal :=
  min posOne (max negOne (w + (etaB * H + muGamma * absE w * w * a) * conn b)) * conn b

def formed (b : BitVec 1) (C : EReal) : BitVec 1 :=
  IntOp.andi (gtE (Ideal.div C sixtyFour) half) (~~~b)

def candidate (b : BitVec 1) (w n H C a : EReal) : EReal :=
  Scalar.select (formed b C) (n * small) (clipped b w H a)

def linked (b : BitVec 1) (C : EReal) : BitVec 1 := IntOp.ori b (formed b C)

def weak (b : BitVec 1) (w n H C a : EReal) : BitVec 1 :=
  IntOp.andi (ltE (absE (candidate b w n H C a)) small) (linked b C)

def newWeight (b : BitVec 1) (w n H C a : EReal) : EReal :=
  Scalar.select (weak b w n H C a) zeroF (candidate b w n H C a)

def newMask (b : BitVec 1) (w n H C a : EReal) : BitVec 1 :=
  IntOp.andi (linked b C) (~~~(weak b w n H C a))

def energy (w a : EReal) : EReal := gamma * absE w * absE a

def newAge (age : EReal) (b : BitVec 1) : EReal := age + conn b

/-! ## The arrangement that receives the bit as a word and the column factors multiplied -/

def bitW (ci : BitVec 32) : BitVec 1 := IntOp.cmpi .ne ci 0#32

def connW (ci : BitVec 32) : EReal := FloatOps.sitofp (F := Ideal) .f32 ((bitW ci).setWidth 32)

def clippedW (ci : BitVec 32) (w H mc : EReal) : EReal :=
  min posOne (max negOne (w + (etaB * H + absE w * w * mc) * connW ci)) * connW ci

def formedW (ci : BitVec 32) (C : EReal) : BitVec 1 :=
  IntOp.andi (gtE (sixtyFourth * C) half) (IntOp.xori (bitW ci) 1#1)

def candidateW (ci : BitVec 32) (w n H C mc : EReal) : EReal :=
  Scalar.select (formedW ci C) (n * small) (clippedW ci w H mc)

def linkedW (ci : BitVec 32) (C : EReal) : BitVec 1 := IntOp.ori (bitW ci) (formedW ci C)

def weakW (ci : BitVec 32) (w n H C mc : EReal) : BitVec 1 :=
  IntOp.andi (ltE (absE (candidateW ci w n H C mc)) small) (linkedW ci C)

def newWeightW (ci : BitVec 32) (w n H C mc : EReal) : EReal :=
  Scalar.select (weakW ci w n H C mc) zeroF (candidateW ci w n H C mc)

/-- The new mask, as the 32-bit word 0 or 1. -/
def newMaskW (ci : BitVec 32) (w n H C mc : EReal) : BitVec 32 :=
  (IntOp.andi (linkedW ci C) (IntOp.xori (weakW ci w n H C mc) 1#1)).setWidth 32

def energyW (w ec : EReal) : EReal := absE w * ec

def newAgeW (age : EReal) (ci : BitVec 32) : EReal := age + connW ci

/-! ## The laws -/

/-- A bit widened to a word is nonzero exactly when the bit is set. -/
theorem bitW_setWidth (b : BitVec 1) : bitW (b.setWidth 32) = b := by
  by_cases h : b = 1#1
  · subst h; decide
  · rw [eq_zero_of_ne_one h]; decide

/-- The same for the comparison spelt out: it is how a 0/1 word is turned back into a bit. -/
theorem cmpi_ne_setWidth (b : BitVec 1) : IntOp.cmpi .ne (b.setWidth 32) 0#32 = b := bitW_setWidth b

/-- The indicator read off the word, signed, is the indicator read off the bit, unsigned. -/
theorem connW_setWidth (b : BitVec 1) : connW (b.setWidth 32) = conn b := by
  unfold connW conn
  rw [bitW_setWidth]
  by_cases h : b = 1#1
  · subst h; show (((((1#1 : BitVec 1).setWidth 32).toInt : ℝ)) : EReal) = (((1#1 : BitVec 1).toNat : ℝ) : EReal); norm_num
  · rw [eq_zero_of_ne_one h]; show (((((0#1 : BitVec 1).setWidth 32).toInt : ℝ)) : EReal) = (((0#1 : BitVec 1).toNat : ℝ) : EReal); norm_num

/-- Exclusive-or with the set bit is the complement. -/
theorem xori_one (b : BitVec 1) : IntOp.xori b 1#1 = ~~~b := by
  by_cases h : b = 1#1
  · subst h; decide
  · rw [eq_zero_of_ne_one h]; decide

theorem sixtyFour_eq : sixtyFour = ((64 : ℝ) : EReal) := by
  simp [Ideal.ofBits, Ideal.ieee, -EReal.coe_mul]; norm_num

theorem sixtyFourth_eq : sixtyFourth = ((1 / 64 : ℝ) : EReal) := by
  simp [Ideal.ofBits, Ideal.ieee, -EReal.coe_mul]; norm_num

/-- Scaling by the dyadic 1/64 is dividing by 64, on every extended real. -/
theorem scale_eq_div (C : EReal) : sixtyFourth * C = Ideal.div C sixtyFour := by
  rw [sixtyFour_eq, sixtyFourth_eq, Ideal.div_coe (by norm_num : (64 : ℝ) ≠ 0), mul_comm]

/-- The metabolic product, its column factor multiplied first or last. -/
theorem metabolic_assoc (x w a : EReal) : x * w * (muGamma * a) = muGamma * x * w * a := by
  ac_rfl

/-- The energy product, likewise. -/
theorem energy_assoc (x y : EReal) : x * (gamma * y) = gamma * x * y := by
  ac_rfl

theorem formedW_eq (b : BitVec 1) (C : EReal) : formedW (b.setWidth 32) C = formed b C := by
  unfold formedW formed; rw [bitW_setWidth, xori_one, scale_eq_div]

theorem clippedW_eq (b : BitVec 1) (w H a : EReal) : clippedW (b.setWidth 32) w H (muGamma * a) = clipped b w H a := by
  unfold clippedW clipped; rw [connW_setWidth, metabolic_assoc]

theorem candidateW_eq (b : BitVec 1) (w n H C a : EReal) :
    candidateW (b.setWidth 32) w n H C (muGamma * a) = candidate b w n H C a := by
  unfold candidateW candidate; rw [formedW_eq, clippedW_eq]

theorem linkedW_eq (b : BitVec 1) (C : EReal) : linkedW (b.setWidth 32) C = linked b C := by
  unfold linkedW linked; rw [bitW_setWidth, formedW_eq]

theorem weakW_eq (b : BitVec 1) (w n H C a : EReal) :
    weakW (b.setWidth 32) w n H C (muGamma * a) = weak b w n H C a := by
  unfold weakW weak; rw [candidateW_eq, linkedW_eq]

/-- THE NEW WEIGHT: the two arrangements agree. -/
theorem newWeightW_eq (b : BitVec 1) (w n H C a : EReal) :
    newWeightW (b.setWidth 32) w n H C (muGamma * a) = newWeight b w n H C a := by
  unfold newWeightW newWeight; rw [weakW_eq, candidateW_eq]

/-- THE NEW MASK: the word, turned back into a bit, is the other arrangement's bit. -/
theorem newMaskW_eq (b : BitVec 1) (w n H C a : EReal) :
    IntOp.cmpi .ne (newMaskW (b.setWidth 32) w n H C (muGamma * a)) 0#32 = newMask b w n H C a := by
  unfold newMaskW newMask; rw [cmpi_ne_setWidth, linkedW_eq, xori_one, weakW_eq]

/-- THE ENERGY. -/
theorem energyW_eq (w a : EReal) : energyW w (gamma * absE a) = energy w a := by
  unfold energyW energy; rw [energy_assoc]

/-- THE AGE. -/
theorem newAgeW_eq (age : EReal) (b : BitVec 1) : newAgeW age (b.setWidth 32) = newAge age b := by
  unfold newAgeW newAge; rw [connW_setWidth]

end Cert.Synapse

end
-- ==== Proof.LibMatmulTN.lean ====
/-
  The product Aᵀ · B of a k × m and a k × n matrix — a matrix unit's product whose dimension numbers contract the
  FIRST axis of both operands and keep no batch axis — accumulated into the zero matrix, read at (a, b), is the
  inner product of column a of A with column b of B:  Σ_{c < k} A[c, a] · B[c, b].
-/
import Idealize.ShloMosaic.PureOps.Ideal
import Idealize.ShloMosaic.PureOps.Ideal.Laws
import Idealize.ShloMosaic.Lib.ValueIdx

noncomputable section

open scoped BigOperators

namespace Cert.LibMatmulTN

open Idealize.ShloMosaic Idealize.ShloMosaic.ValueIdx

/-- `Aᵀ · B` into the zero accumulator, read at `(a, b)`: the inner product of the two columns. `w` is the record's
    well-formedness, which a program states. -/
theorem matmul_tn_zero_apply {m n k : ℕ} {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (a : Fin m) (b : Fin n) :
    matmul (⟨[0], [0], [1], [1], [], [], w⟩ : DotDims _ _ _) prec A B (constant ⟨2, ![m, n]⟩ .f32 0x00000000#32) (ix2 a b)
      = ∑ c : Fin k, A (ix2 c a) * B (ix2 c b) := by
  show FloatOps.matmul _ prec A B _ (ix2 a b) = _
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val
    (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulTN

end
-- ==== Proof.BlockEntries.lean ====
/-
  One grid point of the kernel, entry by entry.

  At a grid point the body holds a 512×512 block of the weights w, of the ages, of the connection words and of the
  fresh random weights, 64×512 blocks of post·contrib, of post and of pre, and 1×512 blocks of the two column
  factors. Entry (p, q) of what it stores in the four output blocks is the synaptic update of that one synapse
  (the arrangement that receives the bit as a word): the Hebbian and correlation sums are column p of the
  64×512 blocks against column q of pre's block (the matrix unit contracts the batch axis of both operands), and the
  column factors are read in row 0 at column q (a [1, 512] row broadcast down the block).
-/
import proofs.«107307_j3633542332471_2_alg».proof.Proof.Gen.KernelIdeal.Skeleton
import proofs.«107307_j3633542332471_2_alg».proof.Proof.PlasticityLaw
import proofs.«107307_j3633542332471_2_alg».proof.Proof.LibMatmulTN
import Idealize.ShloMosaic.Lib.Pipeline.Value
import Idealize.ShloMosaic.Lib.ValueIdx
import Idealize.ShloMosaic.Lib.ValueLayout

noncomputable section

open scoped BigOperators

namespace Cert.Synapse.Block

open Cert.KernelIdeal Cert.KernelIdeal.Gen Cert.Synapse
open Idealize.ShloMosaic Idealize.ShloMosaic.TcCoe Idealize.ShloMosaic.ValueIdx

/-- The matrix unit's product of two 64×512 blocks contracted over their 64 rows, into a zero accumulator, at
    (p, q): column p of the first against column q of the second. -/
theorem contract_apply (A B : FVec Ideal S64x512 .f32) (p q : Fin 512) :
    matmul dot_S64x512_S64x512_S512x512_0_0_1_1_n_n (some .fp32) A B (constant S512x512 .f32 0x00000000#32) (ix2 p q)
      = ∑ k : Fin 64, A (ix2 k p) * B (ix2 k q) :=
  Cert.LibMatmulTN.matmul_tn_zero_apply Facts₀.dot_S64x512_S64x512_S512x512_0_0_1_1_n_n_wf (some .fp32) A B p q

/-- The same with the first block passed through a cast to its own shape, as the body spells it. -/
theorem contract_cast_apply (A B : FVec Ideal S64x512 .f32) (p q : Fin 512) :
    matmul dot_S64x512_S64x512_S512x512_0_0_1_1_n_n (some .fp32) (shapeCast S64x512 A Facts₀.shapeCasts_S64x512_S64x512) B
        (constant S512x512 .f32 0x00000000#32) (ix2 p q)
      = ∑ k : Fin 64, A (ix2 k p) * B (ix2 k q) := by
  rw [shapeCast_self]
  exact contract_apply A B p q

/-- A 1×512 row broadcast down the 512×512 block, at (p, q): the row at column q. -/
theorem row_apply (v : Vec Ideal S1x512 .f32) (p q : Fin 512) :
    broadcastTo S512x512 (shapeCast S1x512 v Facts₀.shapeCasts_S1x512_S1x512) Facts₀.broadcasts_S1x512_S512x512 (ix2 p q)
      = v (ix2 (0 : Fin 1) q) := by
  rw [shapeCast_self]
  exact broadcastTo_1b_ab_apply v Facts₀.broadcasts_S1x512_S512x512 p q

/-- THE NEW WEIGHT stored at (p, q). -/
theorem newWeight_apply (x0 x3 : Vec Ideal S512x512 .f32) (x2 : Vec Ideal S512x512 .i32) (x4 x5 x6 : Vec Ideal S64x512 .f32)
    (x7 : Vec Ideal S1x512 .f32) (p q : Fin 512) :
    k0_pay5 (k0_pay7 x2) (k0_pay8 x2) x6 x5 (Scalar.ofBits .f32 0x3F800000#32) (k0_pay12 x0 x2 x4 x6 x7) x3 (ix2 p q)
      = newWeightW (x2 (ix2 p q)) (x0 (ix2 p q)) (x3 (ix2 p q)) (∑ k : Fin 64, x4 (ix2 k p) * x6 (ix2 k q))
          (∑ k : Fin 64, x5 (ix2 k p) * x6 (ix2 k q)) (x7 (ix2 (0 : Fin 1) q)) := by
  rw [← contract_cast_apply x4 x6 p q, ← contract_apply x5 x6 p q, ← row_apply x7 p q]
  rfl

/-- THE NEW MASK WORD stored at (p, q). -/
theorem newMask_apply (x0 x3 : Vec Ideal S512x512 .f32) (x2 : Vec Ideal S512x512 .i32) (x4 x5 x6 : Vec Ideal S64x512 .f32)
    (x7 : Vec Ideal S1x512 .f32) (p q : Fin 512) :
    k0_pay6 (k0_pay7 x2) (k0_pay8 x2) x6 x5 (Scalar.ofBits .f32 0x3F800000#32) (k0_pay12 x0 x2 x4 x6 x7) x3 (ix2 p q)
      = newMaskW (x2 (ix2 p q)) (x0 (ix2 p q)) (x3 (ix2 p q)) (∑ k : Fin 64, x4 (ix2 k p) * x6 (ix2 k q))
          (∑ k : Fin 64, x5 (ix2 k p) * x6 (ix2 k q)) (x7 (ix2 (0 : Fin 1) q)) := by
  rw [← contract_cast_apply x4 x6 p q, ← contract_apply x5 x6 p q, ← row_apply x7 p q]
  rfl

/-- THE ENERGY stored at (p, q). -/
theorem energy_apply (x0 : Vec Ideal S512x512 .f32) (x8 : Vec Ideal S1x512 .f32) (p q : Fin 512) :
    k0_pay10 x0 x8 (ix2 p q) = energyW (x0 (ix2 p q)) (x8 (ix2 (0 : Fin 1) q)) := by
  rw [← row_apply x8 p q]
  rfl

/-- THE NEW AGE stored at (p, q). -/
theorem newAge_apply (x2 : Vec Ideal S512x512 .i32) (x1 : Vec Ideal S512x512 .f32) (p q : Fin 512) :
    k0_pay11 x2 x1 (ix2 p q) = newAgeW (x1 (ix2 p q)) (x2 (ix2 p q)) := rfl

end Cert.Synapse.Block

end
-- ==== Proof.WholeArrays.lean ====
/-
  From a grid point's blocks to whole arrays.

  The four arrays the kernel leaves are, entry by entry, functions of the nine arrays its windows read: entry (r, c)
  of the new weights and of the new mask words depends on entry (r, c) of the weights, the connection words and the fresh
  weights, on columns r of post·contrib and of post, on column c of pre, and on entry (0, c) of the first column
  factor; the energy on the weight at (r, c) and the second column factor at (0, c); the new age on the age and the
  connection word at (r, c).

  A grid point holds one block of each array. If every entry of each block is the array's entry at the matching
  position — same row and column for the square blocks, row r's and column c's position for the batch blocks and the
  column factors — then what the body stores at a position of an output block is the whole-array function there.
-/
import proofs.«107307_j3633542332471_2_alg».proof.Proof.Gen.KernelIdeal.Frame
import proofs.«107307_j3633542332471_2_alg».proof.Proof.BlockEntries
import Idealize.ShloMosaic.Lib.Pipeline.Value

noncomputable section

open scoped BigOperators

namespace Cert.Synapse.Whole

open Cert.KernelIdeal Cert.KernelIdeal.Gen Cert.Synapse Cert.Synapse.Block
open Idealize.ShloMosaic Idealize.ShloMosaic.TcCoe Idealize.ShloMosaic.ValueIdx

/-- The new weights, from the nine arrays the windows read. -/
def weightsAfter (W NWR : S4096x4096.Idx → EReal) (CI : S4096x4096.Idx → BitVec 32) (PC POST PRE : S64x4096.Idx → EReal)
    (MC : S1x4096.Idx → EReal) : S4096x4096.Idx → EReal := fun i =>
  newWeightW (CI i) (W i) (NWR i) (∑ k : Fin 64, PC (ix2 k (i 0)) * PRE (ix2 k (i 1)))
    (∑ k : Fin 64, POST (ix2 k (i 0)) * PRE (ix2 k (i 1))) (MC (ix2 (0 : Fin 1) (i 1)))

/-- The new mask, as words. -/
def maskAfter (W NWR : S4096x4096.Idx → EReal) (CI : S4096x4096.Idx → BitVec 32) (PC POST PRE : S64x4096.Idx → EReal)
    (MC : S1x4096.Idx → EReal) : S4096x4096.Idx → BitVec 32 := fun i =>
  newMaskW (CI i) (W i) (NWR i) (∑ k : Fin 64, PC (ix2 k (i 0)) * PRE (ix2 k (i 1)))
    (∑ k : Fin 64, POST (ix2 k (i 0)) * PRE (ix2 k (i 1))) (MC (ix2 (0 : Fin 1) (i 1)))

/-- The energy cost. -/
def energyAfter (W : S4096x4096.Idx → EReal) (EC : S1x4096.Idx → EReal) : S4096x4096.Idx → EReal := fun i =>
  energyW (W i) (EC (ix2 (0 : Fin 1) (i 1)))

/-- The new ages. -/
def agesAfter (AGE : S4096x4096.Idx → EReal) (CI : S4096x4096.Idx → BitVec 32) : S4096x4096.Idx → EReal := fun i =>
  newAgeW (AGE i) (CI i)

theorem hz : (![0, 0] : Fin 2 → Nat) = fun _ => 0 := funext fun a => by fin_cases a <;> rfl

section Point

variable (W AGE NWR : S4096x4096.Idx → EReal) (CI : S4096x4096.Idx → BitVec 32) (PC POST PRE : S64x4096.Idx → EReal)
  (MC EC : S1x4096.Idx → EReal)
  (x0 x1 x3 : Vec Ideal S512x512 .f32) (x2 : Vec Ideal S512x512 .i32) (x4 x5 x6 : Vec Ideal S64x512 .f32)
  (x7 x8 : Vec Ideal S1x512 .f32)
  (i : S4096x4096.Idx) (y : S512x512.Idx) (p q : Fin 512)

/-- The new-weight block at a position is the new-weight array at the matching position. -/
theorem weights_point (hy : y = ix2 p q)
    (h0 : x0 y = W i) (h2 : x2 y = CI i) (h3 : x3 y = NWR i)
    (h4 : ∀ k : Fin 64, x4 (ix2 k p) = PC (ix2 k (i 0))) (h5 : ∀ k : Fin 64, x5 (ix2 k p) = POST (ix2 k (i 0)))
    (h6 : ∀ k : Fin 64, x6 (ix2 k q) = PRE (ix2 k (i 1))) (h7 : x7 (ix2 (0 : Fin 1) q) = MC (ix2 (0 : Fin 1) (i 1))) :
    out0_9 x0 x1 x2 x3 x4 x5 x6 x7 x8 y = weightsAfter W NWR CI PC POST PRE MC i := by
  subst hy
  unfold out0_9
  rw [View.canon_unit_zero hz]
  simp only [View.ld_unit_zero (S := S512x512) hz, View.ld_unit_zero (S := S64x512) hz, View.ld_unit_zero (S := S1x512) hz]
  refine (newWeight_apply x0 x3 x2 x4 x5 x6 x7 p q).trans ?_
  unfold weightsAfter
  rw [h0, h2, h3, h7]
  simp only [h4, h5, h6]

/-- The mask-word block likewise. -/
theorem mask_point (hy : y = ix2 p q)
    (h0 : x0 y = W i) (h2 : x2 y = CI i) (h3 : x3 y = NWR i)
    (h4 : ∀ k : Fin 64, x4 (ix2 k p) = PC (ix2 k (i 0))) (h5 : ∀ k : Fin 64, x5 (ix2 k p) = POST (ix2 k (i 0)))
    (h6 : ∀ k : Fin 64, x6 (ix2 k q) = PRE (ix2 k (i 1))) (h7 : x7 (ix2 (0 : Fin 1) q) = MC (ix2 (0 : Fin 1) (i 1))) :
    out0_12 x0 x1 x2 x3 x4 x5 x6 x7 x8 y = maskAfter W NWR CI PC POST PRE MC i := by
  subst hy
  unfold out0_12
  rw [View.canon_unit_zero hz]
  simp only [View.ld_unit_zero (S := S512x512) hz, View.ld_unit_zero (S := S64x512) hz, View.ld_unit_zero (S := S1x512) hz]
  refine (newMask_apply x0 x3 x2 x4 x5 x6 x7 p q).trans ?_
  unfold maskAfter
  rw [h0, h2, h3, h7]
  simp only [h4, h5, h6]

/-- The energy block. -/
theorem energy_point (hy : y = ix2 p q)
    (h0 : x0 y = W i) (h8 : x8 (ix2 (0 : Fin 1) q) = EC (ix2 (0 : Fin 1) (i 1))) :
    out0_10 x0 x1 x2 x3 x4 x5 x6 x7 x8 y = energyAfter W EC i := by
  subst hy
  unfold out0_10
  rw [View.canon_unit_zero hz]
  simp only [View.ld_unit_zero (S := S512x512) hz, View.ld_unit_zero (S := S1x512) hz]
  refine (energy_apply x0 x8 p q).trans ?_
  unfold energyAfter
  rw [h0, h8]

/-- The age block. -/
theorem ages_point (hy : y = ix2 p q)
    (h1 : x1 y = AGE i) (h2 : x2 y = CI i) :
    out0_11 x0 x1 x2 x3 x4 x5 x6 x7 x8 y = agesAfter AGE CI i := by
  subst hy
  unfold out0_11
  rw [View.canon_unit_zero hz]
  simp only [View.ld_unit_zero (S := S512x512) hz]
  refine (newAge_apply x2 x1 p q).trans ?_
  unfold agesAfter
  rw [h1, h2]

end Point

end Cert.Synapse.Whole

end
-- ==== Proof.GridCover.lean ====
/-
  The grid: 8 × 8 points, point t at block row t / 8 and block column t mod 8.

  At point t the square windows (weights, ages, connection words, fresh weights and the four outputs) all sit on the
  512×512 block (row block, column block); the batch windows of post·contrib and post sit on columns
  512·(row block) … of their 64×4096 arrays, pre's and the two column factors' on columns 512·(column block) … . So a
  position (p, q) of the output block is array position (512·rowblock + p, 512·colblock + q), and every entry the body
  reads for it is the whole-array function's operand there. The 64 output blocks tile the 4096×4096 arrays: position
  (r, c) lies in the block of the point with row block r / 512 and column block c / 512. Hence each output array,
  after the last write-back, IS the whole-array function of the arrays the region found.
-/
import proofs.«107307_j3633542332471_2_alg».proof.Proof.Gen.KernelIdeal.Frame
import proofs.«107307_j3633542332471_2_alg».proof.Proof.WholeArrays
import Idealize.ShloMosaic.Lib.Pipeline.Value

set_option maxRecDepth 16384

noncomputable section

open scoped BigOperators

namespace Cert.Synapse.Grid

open Cert.KernelIdeal Cert.KernelIdeal.Gen Cert.Synapse Cert.Synapse.Whole
open Idealize.ShloMosaic Idealize.ShloMosaic.TcCoe Idealize.ShloMosaic.ValueIdx Idealize.SL.Sem
open Idealize.ShloMosaic.Pipeline (Dat)

/-- Where each window's block sits at a point, relative to the new-weight window's block. -/
theorem idx_facts : ∀ t : Fin cfg0.N,
    win0_0.index t (0 : Fin 2) = win0_9.index t (0 : Fin 2) ∧ win0_0.index t (1 : Fin 2) = win0_9.index t (1 : Fin 2)
    ∧ win0_1.index t (0 : Fin 2) = win0_9.index t (0 : Fin 2) ∧ win0_1.index t (1 : Fin 2) = win0_9.index t (1 : Fin 2)
    ∧ win0_2.index t (0 : Fin 2) = win0_9.index t (0 : Fin 2) ∧ win0_2.index t (1 : Fin 2) = win0_9.index t (1 : Fin 2)
    ∧ win0_3.index t (0 : Fin 2) = win0_9.index t (0 : Fin 2) ∧ win0_3.index t (1 : Fin 2) = win0_9.index t (1 : Fin 2)
    ∧ win0_10.index t (0 : Fin 2) = win0_9.index t (0 : Fin 2) ∧ win0_10.index t (1 : Fin 2) = win0_9.index t (1 : Fin 2)
    ∧ win0_11.index t (0 : Fin 2) = win0_9.index t (0 : Fin 2) ∧ win0_11.index t (1 : Fin 2) = win0_9.index t (1 : Fin 2)
    ∧ win0_12.index t (0 : Fin 2) = win0_9.index t (0 : Fin 2) ∧ win0_12.index t (1 : Fin 2) = win0_9.index t (1 : Fin 2)
    ∧ win0_4.index t (0 : Fin 2) = 0 ∧ win0_4.index t (1 : Fin 2) = win0_9.index t (0 : Fin 2)
    ∧ win0_5.index t (0 : Fin 2) = 0 ∧ win0_5.index t (1 : Fin 2) = win0_9.index t (0 : Fin 2)
    ∧ win0_6.index t (0 : Fin 2) = 0 ∧ win0_6.index t (1 : Fin 2) = win0_9.index t (1 : Fin 2)
    ∧ win0_7.index t (0 : Fin 2) = 0 ∧ win0_7.index t (1 : Fin 2) = win0_9.index t (1 : Fin 2)
    ∧ win0_8.index t (0 : Fin 2) = 0 ∧ win0_8.index t (1 : Fin 2) = win0_9.index t (1 : Fin 2) :=
  (by decide +kernel : ∀ t : Fin grid0.N, _)

/-- Every (row block, column block) is some point's. -/
theorem idx_onto9 : ∀ (q0 q1 : Fin 8), ∃ t : Fin cfg0.N, win0_9.index t = ![q0.val, q1.val] :=
  (by decide +kernel : ∀ (q0 q1 : Fin 8), ∃ t : Fin grid0.N, win0_9.index t = ![q0.val, q1.val])
theorem idx_onto10 : ∀ (q0 q1 : Fin 8), ∃ t : Fin cfg0.N, win0_10.index t = ![q0.val, q1.val] :=
  (by decide +kernel : ∀ (q0 q1 : Fin 8), ∃ t : Fin grid0.N, win0_10.index t = ![q0.val, q1.val])
theorem idx_onto11 : ∀ (q0 q1 : Fin 8), ∃ t : Fin cfg0.N, win0_11.index t = ![q0.val, q1.val] :=
  (by decide +kernel : ∀ (q0 q1 : Fin 8), ∃ t : Fin grid0.N, win0_11.index t = ![q0.val, q1.val])
theorem idx_onto12 : ∀ (q0 q1 : Fin 8), ∃ t : Fin cfg0.N, win0_12.index t = ![q0.val, q1.val] :=
  (by decide +kernel : ∀ (q0 q1 : Fin 8), ∃ t : Fin grid0.N, win0_12.index t = ![q0.val, q1.val])

section Emb

variable (t : Fin cfg0.N) (y : S512x512.Idx)

/-- Window 0's block is the new-weight window's block. -/
theorem emb_sq0 : ((cfg0.win 0).blk t).view.emb y = ((cfg0.win 9).blk t).view.emb y := by
  obtain ⟨a0, b0, a1, b1, a2, b2, a3, b3, a10, b10, a11, b11, a12, b12, -⟩ := idx_facts t
  funext a; apply Fin.ext
  match a with
  | ⟨0, _⟩ => show win0_0.index t (0 : Fin 2) * 512 + 1 * (y 0).val = win0_9.index t (0 : Fin 2) * 512 + 1 * (y 0).val; omega
  | ⟨1, _⟩ => show win0_0.index t (1 : Fin 2) * 512 + 1 * (y 1).val = win0_9.index t (1 : Fin 2) * 512 + 1 * (y 1).val; omega
/-- Window 1's block is the new-weight window's block. -/
theorem emb_sq1 : ((cfg0.win 1).blk t).view.emb y = ((cfg0.win 9).blk t).view.emb y := by
  obtain ⟨a0, b0, a1, b1, a2, b2, a3, b3, a10, b10, a11, b11, a12, b12, -⟩ := idx_facts t
  funext a; apply Fin.ext
  match a with
  | ⟨0, _⟩ => show win0_1.index t (0 : Fin 2) * 512 + 1 * (y 0).val = win0_9.index t (0 : Fin 2) * 512 + 1 * (y 0).val; omega
  | ⟨1, _⟩ => show win0_1.index t (1 : Fin 2) * 512 + 1 * (y 1).val = win0_9.index t (1 : Fin 2) * 512 + 1 * (y 1).val; omega
/-- Window 2's block is the new-weight window's block. -/
theorem emb_sq2 : ((cfg0.win 2).blk t).view.emb y = ((cfg0.win 9).blk t).view.emb y := by
  obtain ⟨a0, b0, a1, b1, a2, b2, a3, b3, a10, b10, a11, b11, a12, b12, -⟩ := idx_facts t
  funext a; apply Fin.ext
  match a with
  | ⟨0, _⟩ => show win0_2.index t (0 : Fin 2) * 512 + 1 * (y 0).val = win0_9.index t (0 : Fin 2) * 512 + 1 * (y 0).val; omega
  | ⟨1, _⟩ => show win0_2.index t (1 : Fin 2) * 512 + 1 * (y 1).val = win0_9.index t (1 : Fin 2) * 512 + 1 * (y 1).val; omega
/-- Window 3's block is the new-weight window's block. -/
theorem emb_sq3 : ((cfg0.win 3).blk t).view.emb y = ((cfg0.win 9).blk t).view.emb y := by
  obtain ⟨a0, b0, a1, b1, a2, b2, a3, b3, a10, b10, a11, b11, a12, b12, -⟩ := idx_facts t
  funext a; apply Fin.ext
  match a with
  | ⟨0, _⟩ => show win0_3.index t (0 : Fin 2) * 512 + 1 * (y 0).val = win0_9.index t (0 : Fin 2) * 512 + 1 * (y 0).val; omega
  | ⟨1, _⟩ => show win0_3.index t (1 : Fin 2) * 512 + 1 * (y 1).val = win0_9.index t (1 : Fin 2) * 512 + 1 * (y 1).val; omega
/-- Window 10's block is the new-weight window's block. -/
theorem emb_sq10 : ((cfg0.win 10).blk t).view.emb y = ((cfg0.win 9).blk t).view.emb y := by
  obtain ⟨a0, b0, a1, b1, a2, b2, a3, b3, a10, b10, a11, b11, a12, b12, -⟩ := idx_facts t
  funext a; apply Fin.ext
  match a with
  | ⟨0, _⟩ => show win0_10.index t (0 : Fin 2) * 512 + 1 * (y 0).val = win0_9.index t (0 : Fin 2) * 512 + 1 * (y 0).val; omega
  | ⟨1, _⟩ => show win0_10.index t (1 : Fin 2) * 512 + 1 * (y 1).val = win0_9.index t (1 : Fin 2) * 512 + 1 * (y 1).val; omega
/-- Window 11's block is the new-weight window's block. -/
theorem emb_sq11 : ((cfg0.win 11).blk t).view.emb y = ((cfg0.win 9).blk t).view.emb y := by
  obtain ⟨a0, b0, a1, b1, a2, b2, a3, b3, a10, b10, a11, b11, a12, b12, -⟩ := idx_facts t
  funext a; apply Fin.ext
  match a with
  | ⟨0, _⟩ => show win0_11.index t (0 : Fin 2) * 512 + 1 * (y 0).val = win0_9.index t (0 : Fin 2) * 512 + 1 * (y 0).val; omega
  | ⟨1, _⟩ => show win0_11.index t (1 : Fin 2) * 512 + 1 * (y 1).val = win0_9.index t (1 : Fin 2) * 512 + 1 * (y 1).val; omega
/-- Window 12's block is the new-weight window's block. -/
theorem emb_sq12 : ((cfg0.win 12).blk t).view.emb y = ((cfg0.win 9).blk t).view.emb y := by
  obtain ⟨a0, b0, a1, b1, a2, b2, a3, b3, a10, b10, a11, b11, a12, b12, -⟩ := idx_facts t
  funext a; apply Fin.ext
  match a with
  | ⟨0, _⟩ => show win0_12.index t (0 : Fin 2) * 512 + 1 * (y 0).val = win0_9.index t (0 : Fin 2) * 512 + 1 * (y 0).val; omega
  | ⟨1, _⟩ => show win0_12.index t (1 : Fin 2) * 512 + 1 * (y 1).val = win0_9.index t (1 : Fin 2) * 512 + 1 * (y 1).val; omega

/-- Window 4's block holds, in its column p, the array's column at the output row of position p. -/
theorem emb_row4 (k : Fin 64) (p : Fin 512) (hp : p = y 0) :
    ((cfg0.win 4).blk t).view.emb (ix2 k p) = ix2 k (((cfg0.win 9).blk t).view.emb y 0) := by
  obtain ⟨-, -, -, -, -, -, -, -, -, -, -, -, -, -, a4, b4, a5, b5, -⟩ := idx_facts t
  subst hp
  funext a; apply Fin.ext
  match a with
  | ⟨0, _⟩ => show win0_4.index t (0 : Fin 2) * 64 + 1 * k.val = k.val; omega
  | ⟨1, _⟩ => show win0_4.index t (1 : Fin 2) * 512 + 1 * (y 0).val = win0_9.index t (0 : Fin 2) * 512 + 1 * (y 0).val; omega
/-- Window 5's block holds, in its column p, the array's column at the output row of position p. -/
theorem emb_row5 (k : Fin 64) (p : Fin 512) (hp : p = y 0) :
    ((cfg0.win 5).blk t).view.emb (ix2 k p) = ix2 k (((cfg0.win 9).blk t).view.emb y 0) := by
  obtain ⟨-, -, -, -, -, -, -, -, -, -, -, -, -, -, a4, b4, a5, b5, -⟩ := idx_facts t
  subst hp
  funext a; apply Fin.ext
  match a with
  | ⟨0, _⟩ => show win0_5.index t (0 : Fin 2) * 64 + 1 * k.val = k.val; omega
  | ⟨1, _⟩ => show win0_5.index t (1 : Fin 2) * 512 + 1 * (y 0).val = win0_9.index t (0 : Fin 2) * 512 + 1 * (y 0).val; omega

/-- Window 6's block holds, in its column q, the array's column at the output column of position q. -/
theorem emb_col6 (k : Fin 64) (q : Fin 512) (hq : q = y 1) :
    ((cfg0.win 6).blk t).view.emb (ix2 k q) = ix2 k (((cfg0.win 9).blk t).view.emb y 1) := by
  obtain ⟨-, -, -, -, -, -, -, -, -, -, -, -, -, -, -, -, -, -, a6, b6, -⟩ := idx_facts t
  subst hq
  funext a; apply Fin.ext
  match a with
  | ⟨0, _⟩ => show win0_6.index t (0 : Fin 2) * 64 + 1 * k.val = k.val; omega
  | ⟨1, _⟩ => show win0_6.index t (1 : Fin 2) * 512 + 1 * (y 1).val = win0_9.index t (1 : Fin 2) * 512 + 1 * (y 1).val; omega

/-- Window 7's one-row block holds, at column q, the column factor at the output column of position q. -/
theorem emb_fac7 (q : Fin 512) (hq : q = y 1) :
    ((cfg0.win 7).blk t).view.emb (ix2 (0 : Fin 1) q) = ix2 (0 : Fin 1) (((cfg0.win 9).blk t).view.emb y 1) := by
  obtain ⟨-, -, -, -, -, -, -, -, -, -, -, -, -, -, -, -, -, -, -, -, a7, b7, a8, b8⟩ := idx_facts t
  subst hq
  funext a; apply Fin.ext
  match a with
  | ⟨0, _⟩ => show win0_7.index t (0 : Fin 2) * 1 + 1 * 0 = 0; omega
  | ⟨1, _⟩ => show win0_7.index t (1 : Fin 2) * 512 + 1 * (y 1).val = win0_9.index t (1 : Fin 2) * 512 + 1 * (y 1).val; omega
/-- Window 8's one-row block holds, at column q, the column factor at the output column of position q. -/
theorem emb_fac8 (q : Fin 512) (hq : q = y 1) :
    ((cfg0.win 8).blk t).view.emb (ix2 (0 : Fin 1) q) = ix2 (0 : Fin 1) (((cfg0.win 9).blk t).view.emb y 1) := by
  obtain ⟨-, -, -, -, -, -, -, -, -, -, -, -, -, -, -, -, -, -, -, -, a7, b7, a8, b8⟩ := idx_facts t
  subst hq
  funext a; apply Fin.ext
  match a with
  | ⟨0, _⟩ => show win0_8.index t (0 : Fin 2) * 1 + 1 * 0 = 0; omega
  | ⟨1, _⟩ => show win0_8.index t (1 : Fin 2) * 512 + 1 * (y 1).val = win0_9.index t (1 : Fin 2) * 512 + 1 * (y 1).val; omega

end Emb

/-! ## What a point writes back -/

/-- Window w's block at point t of whatever arrays the region found. -/
abbrev rd (c : Dev nD) (Vv : (b : Ref sig .tc) → Buf (Elt Ideal) ((c : Thread nD τ).loc b)) (w : Fin cfg0.W) (t : Fin cfg0.N) :
    ((cfg0.win w).xblock (cfg0.grid.coords t)).Idx → Elt Ideal (cfg0.win w).elt :=
  ((cfg0.win w).blk t).view.read (Elt Ideal) (Vv (Pipeline.arrRef spec0 w))

/-- WHAT POINT t WRITES BACK through window 9: block t of the new-weight array, whatever arrays the region found. -/
theorem flushed9_of (c : Dev nD) (Vv : (b : Ref sig .tc) → Buf (Elt Ideal) ((c : Thread nD τ).loc b)) (t : Fin cfg0.N) :
    (cfg0.win 9).cut (grid0.coords t) (out0_9 (rd c Vv 0 t) (rd c Vv 1 t) (rd c Vv 2 t) (rd c Vv 3 t) (rd c Vv 4 t) (rd c Vv 5 t) (rd c Vv 6 t) (rd c Vv 7 t) (rd c Vv 8 t))
      = ((cfg0.win 9).blk t).view.read (Elt Ideal) (weightsAfter (Vv main_arg3) (Vv main_arg6) (Vv main_v11) (Vv main_v0) (Vv main_arg1) (Vv main_arg0) (Vv main_v6)) := by
  show (fun y : S512x512.Idx => out0_9 (rd c Vv 0 t) (rd c Vv 1 t) (rd c Vv 2 t) (rd c Vv 3 t) (rd c Vv 4 t) (rd c Vv 5 t) (rd c Vv 6 t) (rd c Vv 7 t) (rd c Vv 8 t) y)
      = fun y : S512x512.Idx => (weightsAfter (Vv main_arg3) (Vv main_arg6) (Vv main_v11) (Vv main_v0) (Vv main_arg1) (Vv main_arg0) (Vv main_v6)) (((cfg0.win 9).blk t).view.emb y)
  funext y
  exact weights_point (Vv main_arg3) (Vv main_arg6) (Vv main_v11) (Vv main_v0) (Vv main_arg1) (Vv main_arg0) (Vv main_v6) _ _ _ _ _ _ _ _ _ _ y (y 0) (y 1) (eq_ix2 y)
    (by show Vv main_arg3 (((cfg0.win 0).blk t).view.emb y) = _; rw [emb_sq0])
    (by show Vv main_v11 (((cfg0.win 2).blk t).view.emb y) = _; rw [emb_sq2])
    (by show Vv main_arg6 (((cfg0.win 3).blk t).view.emb y) = _; rw [emb_sq3])
    (fun k => by show Vv main_v0 (((cfg0.win 4).blk t).view.emb (ix2 k (y 0))) = _; rw [emb_row4 t y k (y 0) rfl]; rfl)
    (fun k => by show Vv main_arg1 (((cfg0.win 5).blk t).view.emb (ix2 k (y 0))) = _; rw [emb_row5 t y k (y 0) rfl]; rfl)
    (fun k => by show Vv main_arg0 (((cfg0.win 6).blk t).view.emb (ix2 k (y 1))) = _; rw [emb_col6 t y k (y 1) rfl]; rfl)
    (by show Vv main_v6 (((cfg0.win 7).blk t).view.emb (ix2 (0 : Fin 1) (y 1))) = _; rw [emb_fac7 t y (y 1) rfl]; rfl)

/-- WHAT POINT t WRITES BACK through window 10: block t of the energy array, whatever arrays the region found. -/
theorem flushed10_of (c : Dev nD) (Vv : (b : Ref sig .tc) → Buf (Elt Ideal) ((c : Thread nD τ).loc b)) (t : Fin cfg0.N) :
    (cfg0.win 10).cut (grid0.coords t) (out0_10 (rd c Vv 0 t) (rd c Vv 1 t) (rd c Vv 2 t) (rd c Vv 3 t) (rd c Vv 4 t) (rd c Vv 5 t) (rd c Vv 6 t) (rd c Vv 7 t) (rd c Vv 8 t))
      = ((cfg0.win 10).blk t).view.read (Elt Ideal) (energyAfter (Vv main_arg3) (Vv main_v10)) := by
  show (fun y : S512x512.Idx => out0_10 (rd c Vv 0 t) (rd c Vv 1 t) (rd c Vv 2 t) (rd c Vv 3 t) (rd c Vv 4 t) (rd c Vv 5 t) (rd c Vv 6 t) (rd c Vv 7 t) (rd c Vv 8 t) y)
      = fun y : S512x512.Idx => (energyAfter (Vv main_arg3) (Vv main_v10)) (((cfg0.win 10).blk t).view.emb y)
  funext y
  rw [emb_sq10]
  exact energy_point (Vv main_arg3) (Vv main_v10) _ _ _ _ _ _ _ _ _ _ y (y 0) (y 1) (eq_ix2 y)
    (by show Vv main_arg3 (((cfg0.win 0).blk t).view.emb y) = _; rw [emb_sq0])
    (by show Vv main_v10 (((cfg0.win 8).blk t).view.emb (ix2 (0 : Fin 1) (y 1))) = _; rw [emb_fac8 t y (y 1) rfl]; rfl)

/-- WHAT POINT t WRITES BACK through window 11: block t of the new-age array, whatever arrays the region found. -/
theorem flushed11_of (c : Dev nD) (Vv : (b : Ref sig .tc) → Buf (Elt Ideal) ((c : Thread nD τ).loc b)) (t : Fin cfg0.N) :
    (cfg0.win 11).cut (grid0.coords t) (out0_11 (rd c Vv 0 t) (rd c Vv 1 t) (rd c Vv 2 t) (rd c Vv 3 t) (rd c Vv 4 t) (rd c Vv 5 t) (rd c Vv 6 t) (rd c Vv 7 t) (rd c Vv 8 t))
      = ((cfg0.win 11).blk t).view.read (Elt Ideal) (agesAfter (Vv main_arg4) (Vv main_v11)) := by
  show (fun y : S512x512.Idx => out0_11 (rd c Vv 0 t) (rd c Vv 1 t) (rd c Vv 2 t) (rd c Vv 3 t) (rd c Vv 4 t) (rd c Vv 5 t) (rd c Vv 6 t) (rd c Vv 7 t) (rd c Vv 8 t) y)
      = fun y : S512x512.Idx => (agesAfter (Vv main_arg4) (Vv main_v11)) (((cfg0.win 11).blk t).view.emb y)
  funext y
  rw [emb_sq11]
  exact ages_point (Vv main_arg4) (Vv main_v11) _ _ _ _ _ _ _ _ _ _ y (y 0) (y 1) (eq_ix2 y)
    (by show Vv main_arg4 (((cfg0.win 1).blk t).view.emb y) = _; rw [emb_sq1])
    (by show Vv main_v11 (((cfg0.win 2).blk t).view.emb y) = _; rw [emb_sq2])

/-- WHAT POINT t WRITES BACK through window 12: block t of the mask-word array, whatever arrays the region found. -/
theorem flushed12_of (c : Dev nD) (Vv : (b : Ref sig .tc) → Buf (Elt Ideal) ((c : Thread nD τ).loc b)) (t : Fin cfg0.N) :
    (cfg0.win 12).cut (grid0.coords t) (out0_12 (rd c Vv 0 t) (rd c Vv 1 t) (rd c Vv 2 t) (rd c Vv 3 t) (rd c Vv 4 t) (rd c Vv 5 t) (rd c Vv 6 t) (rd c Vv 7 t) (rd c Vv 8 t))
      = ((cfg0.win 12).blk t).view.read (Elt Ideal) (maskAfter (Vv main_arg3) (Vv main_arg6) (Vv main_v11) (Vv main_v0) (Vv main_arg1) (Vv main_arg0) (Vv main_v6)) := by
  show (fun y : S512x512.Idx => out0_12 (rd c Vv 0 t) (rd c Vv 1 t) (rd c Vv 2 t) (rd c Vv 3 t) (rd c Vv 4 t) (rd c Vv 5 t) (rd c Vv 6 t) (rd c Vv 7 t) (rd c Vv 8 t) y)
      = fun y : S512x512.Idx => (maskAfter (Vv main_arg3) (Vv main_arg6) (Vv main_v11) (Vv main_v0) (Vv main_arg1) (Vv main_arg0) (Vv main_v6)) (((cfg0.win 12).blk t).view.emb y)
  funext y
  rw [emb_sq12]
  exact mask_point (Vv main_arg3) (Vv main_arg6) (Vv main_v11) (Vv main_v0) (Vv main_arg1) (Vv main_arg0) (Vv main_v6) _ _ _ _ _ _ _ _ _ _ y (y 0) (y 1) (eq_ix2 y)
    (by show Vv main_arg3 (((cfg0.win 0).blk t).view.emb y) = _; rw [emb_sq0])
    (by show Vv main_v11 (((cfg0.win 2).blk t).view.emb y) = _; rw [emb_sq2])
    (by show Vv main_arg6 (((cfg0.win 3).blk t).view.emb y) = _; rw [emb_sq3])
    (fun k => by show Vv main_v0 (((cfg0.win 4).blk t).view.emb (ix2 k (y 0))) = _; rw [emb_row4 t y k (y 0) rfl]; rfl)
    (fun k => by show Vv main_arg1 (((cfg0.win 5).blk t).view.emb (ix2 k (y 0))) = _; rw [emb_row5 t y k (y 0) rfl]; rfl)
    (fun k => by show Vv main_arg0 (((cfg0.win 6).blk t).view.emb (ix2 k (y 1))) = _; rw [emb_col6 t y k (y 1) rfl]; rfl)
    (by show Vv main_v6 (((cfg0.win 7).blk t).view.emb (ix2 (0 : Fin 1) (y 1))) = _; rw [emb_fac7 t y (y 1) rfl]; rfl)

/-! ## The blocks tile the arrays -/

/-- A position of the array is in point t's block of window 9 iff each coordinate is in the block's range. -/
theorem mem_blk9 (t : Fin cfg0.N) (i : S4096x4096.Idx) :
    i ∈ ((cfg0.win 9).blk t).view.set ↔ ∀ a : Fin 2, win0_9.index t a * S512x512.size a ≤ (i a).val ∧ (i a).val < win0_9.index t a * S512x512.size a + S512x512.size a := by
  show i ∈ ((View.whole main_v12_0).slice (win0_9.rect t)).set ↔ _
  rw [View.set_slice_whole, Rect.mem_set_unit]
  exact Iff.rfl

/-- Every position is in the block of the point at its row block and column block. -/
theorem cover9 (i : S4096x4096.Idx) :
    ∃ t : Fin cfg0.N, (cfg0.win 9).flush t = true ∧ i ∈ ((cfg0.win 9).blk t).view.set := by
  have hi0 : (i 0).val < 4096 := (i 0).isLt
  have hi1 : (i 1).val < 4096 := (i 1).isLt
  obtain ⟨t, ht⟩ := idx_onto9 ⟨(i 0).val / 512, by omega⟩ ⟨(i 1).val / 512, by omega⟩
  have q0 : win0_9.index t (0 : Fin 2) = (i 0).val / 512 := congrFun ht 0
  have q1 : win0_9.index t (1 : Fin 2) = (i 1).val / 512 := congrFun ht 1
  refine ⟨t, flush0_9 t, ?_⟩
  rw [mem_blk9]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 512 ≤ (i 1).val ∧ (i 1).val < win0_9.index t (1 : Fin 2) * 512 + 512; omega

/-- A position of the array is in point t's block of window 10 iff each coordinate is in the block's range. -/
theorem mem_blk10 (t : Fin cfg0.N) (i : S4096x4096.Idx) :
    i ∈ ((cfg0.win 10).blk t).view.set ↔ ∀ a : Fin 2, win0_10.index t a * S512x512.size a ≤ (i a).val ∧ (i a).val < win0_10.index t a * S512x512.size a + S512x512.size a := by
  show i ∈ ((View.whole main_v12_1).slice (win0_10.rect t)).set ↔ _
  rw [View.set_slice_whole, Rect.mem_set_unit]
  exact Iff.rfl

/-- Every position is in the block of the point at its row block and column block. -/
theorem cover10 (i : S4096x4096.Idx) :
    ∃ t : Fin cfg0.N, (cfg0.win 10).flush t = true ∧ i ∈ ((cfg0.win 10).blk t).view.set := by
  have hi0 : (i 0).val < 4096 := (i 0).isLt
  have hi1 : (i 1).val < 4096 := (i 1).isLt
  obtain ⟨t, ht⟩ := idx_onto10 ⟨(i 0).val / 512, by omega⟩ ⟨(i 1).val / 512, by omega⟩
  have q0 : win0_10.index t (0 : Fin 2) = (i 0).val / 512 := congrFun ht 0
  have q1 : win0_10.index t (1 : Fin 2) = (i 1).val / 512 := congrFun ht 1
  refine ⟨t, flush0_10 t, ?_⟩
  rw [mem_blk10]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 512 ≤ (i 1).val ∧ (i 1).val < win0_10.index t (1 : Fin 2) * 512 + 512; omega

/-- A position of the array is in point t's block of window 11 iff each coordinate is in the block's range. -/
theorem mem_blk11 (t : Fin cfg0.N) (i : S4096x4096.Idx) :
    i ∈ ((cfg0.win 11).blk t).view.set ↔ ∀ a : Fin 2, win0_11.index t a * S512x512.size a ≤ (i a).val ∧ (i a).val < win0_11.index t a * S512x512.size a + S512x512.size a := by
  show i ∈ ((View.whole main_v12_2).slice (win0_11.rect t)).set ↔ _
  rw [View.set_slice_whole, Rect.mem_set_unit]
  exact Iff.rfl

/-- Every position is in the block of the point at its row block and column block. -/
theorem cover11 (i : S4096x4096.Idx) :
    ∃ t : Fin cfg0.N, (cfg0.win 11).flush t = true ∧ i ∈ ((cfg0.win 11).blk t).view.set := by
  have hi0 : (i 0).val < 4096 := (i 0).isLt
  have hi1 : (i 1).val < 4096 := (i 1).isLt
  obtain ⟨t, ht⟩ := idx_onto11 ⟨(i 0).val / 512, by omega⟩ ⟨(i 1).val / 512, by omega⟩
  have q0 : win0_11.index t (0 : Fin 2) = (i 0).val / 512 := congrFun ht 0
  have q1 : win0_11.index t (1 : Fin 2) = (i 1).val / 512 := congrFun ht 1
  refine ⟨t, flush0_11 t, ?_⟩
  rw [mem_blk11]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 512 ≤ (i 1).val ∧ (i 1).val < win0_11.index t (1 : Fin 2) * 512 + 512; omega

/-- A position of the array is in point t's block of window 12 iff each coordinate is in the block's range. -/
theorem mem_blk12 (t : Fin cfg0.N) (i : S4096x4096.Idx) :
    i ∈ ((cfg0.win 12).blk t).view.set ↔ ∀ a : Fin 2, win0_12.index t a * S512x512.size a ≤ (i a).val ∧ (i a).val < win0_12.index t a * S512x512.size a + S512x512.size a := by
  show i ∈ ((View.whole main_v12_3).slice (win0_12.rect t)).set ↔ _
  rw [View.set_slice_whole, Rect.mem_set_unit]
  exact Iff.rfl

/-- Every position is in the block of the point at its row block and column block. -/
theorem cover12 (i : S4096x4096.Idx) :
    ∃ t : Fin cfg0.N, (cfg0.win 12).flush t = true ∧ i ∈ ((cfg0.win 12).blk t).view.set := by
  have hi0 : (i 0).val < 4096 := (i 0).isLt
  have hi1 : (i 1).val < 4096 := (i 1).isLt
  obtain ⟨t, ht⟩ := idx_onto12 ⟨(i 0).val / 512, by omega⟩ ⟨(i 1).val / 512, by omega⟩
  have q0 : win0_12.index t (0 : Fin 2) = (i 0).val / 512 := congrFun ht 0
  have q1 : win0_12.index t (1 : Fin 2) = (i 1).val / 512 := congrFun ht 1
  refine ⟨t, flush0_12 t, ?_⟩
  rw [mem_blk12]
  intro a
  match a with
  | ⟨0, _⟩ => show win0_12.index t (0 : Fin 2) * 512 ≤ (i 0).val ∧ (i 0).val < win0_12.index t (0 : Fin 2) * 512 + 512; omega
  | ⟨1, _⟩ => show win0_12.index t (1 : Fin 2) * 512 ≤ (i 1).val ∧ (i 1).val < win0_12.index t (1 : Fin 2) * 512 + 512; omega

/-! ## The arrays after the region -/

section Final

variable (m : (ℓ : Loc nD τ sig) → Buf (Elt Ideal) ℓ)

/-- Point t's write-back through window 9, at the arrays the region found. -/
theorem flushed9_eq (c : Dev nD) (t : Fin cfg0.N) :
    (dats m 0 c).flushed 9 t = ((cfg0.win 9).blk t).view.read (Elt Ideal) (weightsAfter (V m c main_arg3) (V m c main_arg6) (V m c main_v11) (V m c main_v0) (V m c main_arg1) (V m c main_arg0) (V m c main_v6)) := by
  show (cfg0.win 9).cut (grid0.coords t) ((dats m 0 c).after 9 t) = _
  rw [after0_9]
  unfold iblk
  exact flushed9_of c (V m c) t

/-- THE NEW-WEIGHT ARRAY after the last write-back. -/
theorem final9 (c : Dev nD) : (dats m 0 c).arrAt 9 cfg0.N = weightsAfter (V m c main_arg3) (V m c main_arg6) (V m c main_v11) (V m c main_v0) (V m c main_arg1) (V m c main_arg0) (V m c main_v6) :=
  (dats m 0 c).arrAt_eq_of_cover 9 (weightsAfter (V m c main_arg3) (V m c main_arg6) (V m c main_v11) (V m c main_v0) (V m c main_arg1) (V m c main_arg0) (V m c main_v6)) (fun t _ => flushed9_eq m c t) cover9

/-- Point t's write-back through window 10, at the arrays the region found. -/
theorem flushed10_eq (c : Dev nD) (t : Fin cfg0.N) :
    (dats m 0 c).flushed 10 t = ((cfg0.win 10).blk t).view.read (Elt Ideal) (energyAfter (V m c main_arg3) (V m c main_v10)) := by
  show (cfg0.win 10).cut (grid0.coords t) ((dats m 0 c).after 10 t) = _
  rw [after0_10]
  unfold iblk
  exact flushed10_of c (V m c) t

/-- THE ENERGY ARRAY after the last write-back. -/
theorem final10 (c : Dev nD) : (dats m 0 c).arrAt 10 cfg0.N = energyAfter (V m c main_arg3) (V m c main_v10) :=
  (dats m 0 c).arrAt_eq_of_cover 10 (energyAfter (V m c main_arg3) (V m c main_v10)) (fun t _ => flushed10_eq m c t) cover10

/-- Point t's write-back through window 11, at the arrays the region found. -/
theorem flushed11_eq (c : Dev nD) (t : Fin cfg0.N) :
    (dats m 0 c).flushed 11 t = ((cfg0.win 11).blk t).view.read (Elt Ideal) (agesAfter (V m c main_arg4) (V m c main_v11)) := by
  show (cfg0.win 11).cut (grid0.coords t) ((dats m 0 c).after 11 t) = _
  rw [after0_11]
  unfold iblk
  exact flushed11_of c (V m c) t

/-- THE NEW-AGE ARRAY after the last write-back. -/
theorem final11 (c : Dev nD) : (dats m 0 c).arrAt 11 cfg0.N = agesAfter (V m c main_arg4) (V m c main_v11) :=
  (dats m 0 c).arrAt_eq_of_cover 11 (agesAfter (V m c main_arg4) (V m c main_v11)) (fun t _ => flushed11_eq m c t) cover11

/-- Point t's write-back through window 12, at the arrays the region found. -/
theorem flushed12_eq (c : Dev nD) (t : Fin cfg0.N) :
    (dats m 0 c).flushed 12 t = ((cfg0.win 12).blk t).view.read (Elt Ideal) (maskAfter (V m c main_arg3) (V m c main_arg6) (V m c main_v11) (V m c main_v0) (V m c main_arg1) (V m c main_arg0) (V m c main_v6)) := by
  show (cfg0.win 12).cut (grid0.coords t) ((dats m 0 c).after 12 t) = _
  rw [after0_12]
  unfold iblk
  exact flushed12_of c (V m c) t

/-- THE MASK-WORD ARRAY after the last write-back. -/
theorem final12 (c : Dev nD) : (dats m 0 c).arrAt 12 cfg0.N = maskAfter (V m c main_arg3) (V m c main_arg6) (V m c main_v11) (V m c main_v0) (V m c main_arg1) (V m c main_arg0) (V m c main_v6) :=
  (dats m 0 c).arrAt_eq_of_cover 12 (maskAfter (V m c main_arg3) (V m c main_arg6) (V m c main_v11) (V m c main_v0) (V m c main_arg1) (V m c main_arg0) (V m c main_v6)) (fun t _ => flushed12_eq m c t) cover12

end Final

end Cert.Synapse.Grid

end
-- ==== Proof.SynapseSpec.lean ====
/-
  The four results as functions of the seven inputs, entry by entry.

  With a[c] the column mean of pre, entry (r, c) of the results is the synaptic update of synapse (r, c) from
  its connection bit, weight, age and fresh weight, the Hebbian sum Σ_k post[k,r]·contrib[k,r]·pre[k,c], the
  correlation sum Σ_k post[k,r]·pre[k,c], and a[c]. The column mean enters as a given vector: both programs compute it
  by the same sum and the same division, and nothing here looks inside it.
-/
import proofs.«107307_j3633542332471_2_alg».proof.Proof.PlasticityLaw

noncomputable section

open scoped BigOperators

namespace Cert.Synapse

open Idealize.ShloMosaic Idealize.ShloMosaic.ValueIdx

abbrev Sq : Shape := ⟨2, ![4096, 4096]⟩
abbrev Batch : Shape := ⟨2, ![64, 4096]⟩
abbrev Cols : Shape := ⟨1, ![4096]⟩

/-- The Hebbian sum of synapse (r, c). -/
def hebb (pre post contrib : Batch.Idx → EReal) (r c : Fin 4096) : EReal :=
  ∑ k : Fin 64, post (ix2 k r) * contrib (ix2 k r) * pre (ix2 k c)

/-- The correlation sum of synapse (r, c). -/
def corr (pre post : Batch.Idx → EReal) (r c : Fin 4096) : EReal :=
  ∑ k : Fin 64, post (ix2 k r) * pre (ix2 k c)

def specWeights (A : Cols.Idx → EReal) (pre post contrib : Batch.Idx → EReal) (w nwr : Sq.Idx → EReal)
    (isc : Sq.Idx → BitVec 1) : Sq.Idx → EReal := fun i =>
  newWeight (isc i) (w i) (nwr i) (hebb pre post contrib (i 0) (i 1)) (corr pre post (i 0) (i 1)) (A (ix1 (i 1)))

def specMask (A : Cols.Idx → EReal) (pre post contrib : Batch.Idx → EReal) (w nwr : Sq.Idx → EReal)
    (isc : Sq.Idx → BitVec 1) : Sq.Idx → BitVec 1 := fun i =>
  newMask (isc i) (w i) (nwr i) (hebb pre post contrib (i 0) (i 1)) (corr pre post (i 0) (i 1)) (A (ix1 (i 1)))

def specEnergy (A : Cols.Idx → EReal) (w : Sq.Idx → EReal) : Sq.Idx → EReal := fun i =>
  energy (w i) (A (ix1 (i 1)))

def specAges (age : Sq.Idx → EReal) (isc : Sq.Idx → BitVec 1) : Sq.Idx → EReal := fun i =>
  newAge (age i) (isc i)

end Cert.Synapse

end
-- ==== Proof.KernelValues.lean ====
/-
  The kernel's four results as functions of the seven inputs.

  Before the region the host lines prepare four of the arrays the windows read: post·contrib, the connection bits
  widened to words, and the two column factors μ'·a and γ·|a| laid out as one row (a the column mean of pre). The
  region leaves the new weights, the energy, the new ages and the mask words as the whole-array functions of what it
  found; after it one host line turns the mask words back into bits ("not zero"). Substituting what the host lines
  prepared, and exchanging the arrangement that receives words and multiplied column factors for the one that takes
  the bit and the mean as given, each result is the specification's function of the inputs.
-/
import proofs.«107307_j3633542332471_2_alg».proof.Proof.Gen.KernelIdeal.Frame
import proofs.«107307_j3633542332471_2_alg».proof.Proof.GridCover
import proofs.«107307_j3633542332471_2_alg».proof.Proof.SynapseSpec
import Idealize.ShloMosaic.Lib.StableHlo.Run
import Idealize.ShloMosaic.Lib.ValueLayout
import Idealize.ShloMosaic.Lib.Pipeline.Value

noncomputable section

open scoped BigOperators

namespace Cert.Synapse.Kernel

open Cert.KernelIdeal Cert.KernelIdeal.Gen Cert.Synapse Cert.Synapse.Whole Cert.Synapse.Grid
open Idealize.ShloMosaic Idealize.ShloMosaic.TcCoe Idealize.ShloMosaic.ValueIdx Idealize.SL.Sem Idealize.ShloMosaic.StableHlo
open Idealize.ShloMosaic.Pipeline (Dat)

/-- The column mean of pre, as the host lines before the region compute it: the sum over the 64 samples, divided
    by 64. -/
abbrev meanPre (pre : S64x4096.Idx → EReal) : S4096.Idx → EReal :=
  Host.divf (Host.reduceAdd pre (constant (F := Ideal) S_ .f32 0x00000000#32) Facts₀.reducesTo_S64x4096_S4096_d0 Facts₀.h_S_)
    (broadcastInDim S4096 ![] Facts₀.bcast_S_S4096 (constant (F := Ideal) S_ .f32 0x42800000#32))

/-- The first column factor as the windows find it: μ'·a, laid out as one row. -/
abbrev facM (A : S4096.Idx → EReal) : S1x4096.Idx → EReal :=
  shapeCast S1x4096 (mulf (broadcastInDim S4096 ![] Facts₀.bcast_S_S4096 (constant (F := Ideal) S_ .f32 0xBBA3D70A#32)) A)
    Facts₀.shapeCasts_S4096_S1x4096

/-- The second: γ·|a|. -/
abbrev facE (A : S4096.Idx → EReal) : S1x4096.Idx → EReal :=
  shapeCast S1x4096 (mulf (broadcastInDim S4096 ![] Facts₀.bcast_S_S4096 (constant (F := Ideal) S_ .f32 0x3D4CCCCD#32)) (Host.absf A))
    Facts₀.shapeCasts_S4096_S1x4096

/-! ## Exchanging the arrangements, array by array -/

section Bridge

variable (A : S4096.Idx → EReal) (pre post contrib : S64x4096.Idx → EReal) (w age nwr : S4096x4096.Idx → EReal)
  (isc : S4096x4096.Idx → BitVec 1)

theorem facM_apply (c : Fin 4096) : facM A (ix2 (0 : Fin 1) c) = muGamma * A (ix1 c) := by
  show shapeCast (⟨2, ![1, 4096]⟩ : Shape) _ _ (ix2 (0 : Fin 1) c) = _
  rw [shapeCast_a_1a_apply]
  rfl

theorem facE_apply (c : Fin 4096) : facE A (ix2 (0 : Fin 1) c) = gamma * absE (A (ix1 c)) := by
  show shapeCast (⟨2, ![1, 4096]⟩ : Shape) _ _ (ix2 (0 : Fin 1) c) = _
  rw [shapeCast_a_1a_apply]
  rfl

theorem weights_bridge :
    weightsAfter w nwr (extui 32 isc Facts₀.natLt_1_32) (mulf (F := Ideal) (s := S64x4096) (φ := .f32) post contrib) post pre (facM A)
      = specWeights A pre post contrib w nwr isc := by
  funext i
  unfold weightsAfter specWeights
  exact (congrArg (newWeightW _ _ _ _ _) (facM_apply A (i 1))).trans (newWeightW_eq (isc i) (w i) (nwr i) _ _ (A (ix1 (i 1))))

theorem mask_bridge :
    cmpi .ne (maskAfter w nwr (extui 32 isc Facts₀.natLt_1_32) (mulf (F := Ideal) (s := S64x4096) (φ := .f32) post contrib) post pre (facM A))
        (broadcastInDim S4096x4096 ![] Facts₀.bcast_S_S4096x4096 (constantI S_ 32 0#32))
      = specMask A pre post contrib w nwr isc := by
  funext i
  show IntOp.cmpi .ne (maskAfter w nwr (extui 32 isc Facts₀.natLt_1_32) (mulf (F := Ideal) (s := S64x4096) (φ := .f32) post contrib) post pre (facM A) i) 0#32 = _
  unfold maskAfter specMask
  exact (congrArg (fun z => IntOp.cmpi .ne (newMaskW _ _ _ _ _ z) 0#32) (facM_apply A (i 1))).trans (newMaskW_eq (isc i) (w i) (nwr i) _ _ (A (ix1 (i 1))))

theorem energy_bridge : energyAfter w (facE A) = specEnergy A w := by
  funext i
  unfold energyAfter specEnergy
  exact (congrArg (energyW (w i)) (facE_apply A (i 1))).trans (energyW_eq (w i) (A (ix1 (i 1))))

theorem ages_bridge : agesAfter age (extui 32 isc Facts₀.natLt_1_32) = specAges age isc := by
  funext i
  exact newAgeW_eq (age i) (isc i)

end Bridge

/-! ## What the host lines before the region prepared -/

variable (m : (ℓ : Loc nD τ sig) → Buf (Elt Ideal) ℓ) (ρ : Dev nD → PrngReg)

theorem V_pc (c : Dev nD) : V m c main_v0 = mulf (F := Ideal) (s := S64x4096) (φ := .f32) (m ((c.tc : Thread nD τ).loc main_arg1)) (m ((c.tc : Thread nD τ).loc main_arg2)) := by
  show StableHlo.after hostOps0 (fun b => m (c, b)) (Proc.devRef .tc main_v0) = _
  after_results <;> rfl

theorem V_words (c : Dev nD) : V m c main_v11 = extui 32 (m ((c.tc : Thread nD τ).loc main_arg5)) Facts₀.natLt_1_32 := by
  show StableHlo.after hostOps0 (fun b => m (c, b)) (Proc.devRef .tc main_v11) = _
  after_results <;> rfl

theorem V_facM (c : Dev nD) : V m c main_v6 = facM (meanPre (m ((c.tc : Thread nD τ).loc main_arg0))) := by
  show StableHlo.after hostOps0 (fun b => m (c, b)) (Proc.devRef .tc main_v6) = _
  after_results <;> rfl

theorem V_facE (c : Dev nD) : V m c main_v10 = facE (meanPre (m ((c.tc : Thread nD τ).loc main_arg0))) := by
  show StableHlo.after hostOps0 (fun b => m (c, b)) (Proc.devRef .tc main_v10) = _
  after_results <;> rfl

/-! ## The results -/

theorem weights_eq (c : Dev nD) : (dats m 0 c).arrAt 9 cfg0.N
    = specWeights (meanPre (m ((c.tc : Thread nD τ).loc main_arg0))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg5)) := by
  rw [final9, V_main_arg3, V_main_arg6, V_words, V_pc, V_main_arg1, V_main_arg0, V_facM]
  exact weights_bridge _ _ _ _ _ _ _

theorem energy_eq (c : Dev nD) : (dats m 0 c).arrAt 10 cfg0.N = specEnergy (meanPre (m ((c.tc : Thread nD τ).loc main_arg0))) (m ((c.tc : Thread nD τ).loc main_arg3)) := by
  rw [final10, V_main_arg3, V_facE]
  exact energy_bridge _ _

theorem ages_eq (c : Dev nD) : (dats m 0 c).arrAt 11 cfg0.N = specAges (m ((c.tc : Thread nD τ).loc main_arg4)) (m ((c.tc : Thread nD τ).loc main_arg5)) := by
  rw [final11, V_main_arg4, V_words]
  exact ages_bridge _ _

theorem words_eq (c : Dev nD) : (dats m 0 c).arrAt 12 cfg0.N
    = maskAfter (m ((c.tc : Thread nD τ).loc main_arg3)) (m ((c.tc : Thread nD τ).loc main_arg6)) (extui 32 (m ((c.tc : Thread nD τ).loc main_arg5)) Facts₀.natLt_1_32) (mulf (F := Ideal) (s := S64x4096) (φ := .f32) (m ((c.tc : Thread nD τ).loc main_arg1)) (m ((c.tc : Thread nD τ).loc main_arg2))) (m ((c.tc : Thread nD τ).loc main_arg1)) (m ((c.tc : Thread nD τ).loc main_arg0)) (facM (meanPre (m ((c.tc : Thread nD τ).loc main_arg0)))) := by
  rw [final12, V_main_arg3, V_main_arg6, V_words, V_pc, V_main_arg1, V_main_arg0, V_facM]

/-- The mask after the host line that follows the region. -/
theorem mask_eq (c : Dev nD) : Pipeline.afterTail₀ cfgs (dats m) 0 (V0 m) [hostOps1] c main_v15
    = specMask (meanPre (m ((c.tc : Thread nD τ).loc main_arg0))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg5)) := by
  unfold Pipeline.afterTail₀
  show StableHlo.after hostOps1 _ (Proc.devRef .tc main_v15) = _
  after_results
  have e := (Pipeline.withArrays_arr spec0 launch0.win.arr_inj c (V0 m c) (fun w => (dats m 0 c).arrAt w cfg0.N) 12).trans (words_eq m c)
  rw [show Pipeline.withArrays (cfgs 0).spec c (V0 m c) (fun w => (dats m 0 c).arrAt w (cfgs 0).N) (Proc.devRef .tc main_v12_3) = _ from e]
  exact mask_bridge _ _ _ _ _ _ _

/-! ## The run -/

/-- Every weakly fair execution of the kernel's @main terminates with the four results at the specification's functions of
    the inputs, and the inputs unchanged: the region's arrays and the host line after it read as above, the inputs
    either staged by an input window (never written back) or untouched by every line. -/
theorem run : θ_run defs (onTc (τ := τ) (main (F := Ideal))) ⟨m, fun _ => 0, ρ⟩ fun r => ∀ c : Dev nD,
      r.2.mem ((c.tc : Thread nD τ).loc main_v12_0) = specWeights (meanPre (m ((c.tc : Thread nD τ).loc main_arg0))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg5))
      ∧ r.2.mem ((c.tc : Thread nD τ).loc main_v12_1) = specEnergy (meanPre (m ((c.tc : Thread nD τ).loc main_arg0))) (m ((c.tc : Thread nD τ).loc main_arg3))
      ∧ r.2.mem ((c.tc : Thread nD τ).loc main_v12_2) = specAges (m ((c.tc : Thread nD τ).loc main_arg4)) (m ((c.tc : Thread nD τ).loc main_arg5))
      ∧ r.2.mem ((c.tc : Thread nD τ).loc main_v15) = specMask (meanPre (m ((c.tc : Thread nD τ).loc main_arg0))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 9).trans (weights_eq m c),
      ((h c).1 10).trans (energy_eq m c),
      ((h c).1 11).trans (ages_eq m c),
      ((h c).2 main_v15 (Pipeline.mem_restRefs_of main_v15 (by decide) (by decide))).trans (mask_eq m c),
      ((h c).1 6).trans (((dats m 0 c).arrAt_in 6 rfl _).trans ((A_eq m c 6).trans (V_main_arg0 m c))),
      ((h c).1 5).trans (((dats m 0 c).arrAt_in 5 rfl _).trans ((A_eq m c 5).trans (V_main_arg1 m c))),
      ((h c).2 main_arg2 (Pipeline.mem_restRefs_of main_arg2 (by decide) (by decide))).trans (W_main_arg2 m (dats m) c),
      ((h c).1 0).trans (((dats m 0 c).arrAt_in 0 rfl _).trans ((A_eq m c 0).trans (V_main_arg3 m c))),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c),
      ((h c).1 3).trans (((dats m 0 c).arrAt_in 3 rfl _).trans ((A_eq m c 3).trans (V_main_arg6 m c)))⟩)
    (run_main m ρ)

end Cert.Synapse.Kernel

end
-- ==== Proof.ReferenceEntries.lean ====
/-
  The reference, entry by entry.

  Each stage of the reference is read at a position (r, c): the two contractions are sums over the 64 samples of
  column r against column c, the broadcast column mean is its entry c, the scalar literals are themselves. Read so,
  the reference's four results are the synaptic update in the arrangement that takes the connection bit as given.
-/
import proofs.«107307_j3633542332471_2_alg».proof.Proof.Gen.ReferenceIdeal.Read
import proofs.«107307_j3633542332471_2_alg».proof.Proof.SynapseSpec

noncomputable section

open scoped BigOperators

namespace Cert.Synapse.Ref

open Cert.ReferenceIdeal Cert.ReferenceIdeal.Gen Cert.ReferenceIdeal.Read Cert.Synapse
open Idealize.ShloMosaic Idealize.ShloMosaic.TcCoe Idealize.ShloMosaic.ValueIdx

variable (x0 x1 x2 : (⟨S64x4096, .f32⟩ : BufTy).Contents (Elt Ideal)) (x3 : (⟨S4096x4096, .f32⟩ : BufTy).Contents (Elt Ideal)) (x5 : (⟨S4096x4096, .i1⟩ : BufTy).Contents (Elt Ideal)) (x6 : (⟨S4096x4096, .f32⟩ : BufTy).Contents (Elt Ideal)) (x4 : (⟨S4096x4096, .f32⟩ : BufTy).Contents (Elt Ideal)) (i : S4096x4096.Idx)

/-- The column mean, as the reference computes it. -/
abbrev mean (x0 : (⟨S64x4096, .f32⟩ : BufTy).Contents (Elt Ideal)) : S4096.Idx → EReal := val_main_v7 (F := Ideal) x0

/-- The Hebbian contraction at (r, c). -/
theorem hebb_ref : val_main_v2 (F := Ideal) x0 x1 x2 i = hebb x0 x1 x2 (i 0) (i 1) := by
  rw [val_main_v2_apply]
  refine Finset.sum_congr rfl fun k _ => ?_
  have el : lidx_main_v2 i k = ix2 k (i 0) := funext fun a => Fin.ext (by match a with | ⟨0, _⟩ => rfl | ⟨1, _⟩ => rfl)
  have er : ridx_main_v2 i k = ix2 k (i 1) := funext fun a => Fin.ext (by match a with | ⟨0, _⟩ => rfl | ⟨1, _⟩ => rfl)
  rw [el, er]
  rfl

/-- The correlation contraction at (r, c). -/
theorem corr_ref : val_main_v28 (F := Ideal) x0 x1 i = corr x0 x1 (i 0) (i 1) := by
  rw [val_main_v28_apply]
  refine Finset.sum_congr rfl fun k _ => ?_
  have el : lidx_main_v28 i k = ix2 k (i 0) := funext fun a => Fin.ext (by match a with | ⟨0, _⟩ => rfl | ⟨1, _⟩ => rfl)
  have er : ridx_main_v28 i k = ix2 k (i 1) := funext fun a => Fin.ext (by match a with | ⟨0, _⟩ => rfl | ⟨1, _⟩ => rfl)
  rw [el, er]
  rfl

/-- The broadcast column mean at (r, c) is its entry c. -/
theorem mean_ref : val_main_v13 (F := Ideal) x0 i = mean x0 (ix1 (i 1)) := by
  rw [val_main_v13_apply, val_main_v12_apply]
  exact congrArg _ (funext fun a => Fin.ext (by match a with | ⟨0, _⟩ => rfl))

/-- The broadcast absolute column mean at (r, c). -/
theorem absmean_ref : val_main_v25 (F := Ideal) x0 i = absE (mean x0 (ix1 (i 1))) := by
  rw [val_main_v25_apply, val_main_v24_apply]
  exact congrArg (fun j => FloatOps.hostAbsf (F := Ideal) (φ := .f32) (val_main_v7 (F := Ideal) x0 j))
    (funext fun a => Fin.ext (by match a with | ⟨0, _⟩ => rfl))

theorem clipped_ref : val_main_v19 (F := Ideal) x0 x1 x2 x3 x5 i
    = clipped (x5 i) (x3 i) (hebb x0 x1 x2 (i 0) (i 1)) (mean x0 (ix1 (i 1))) := by
  unfold clipped
  rw [← hebb_ref x0 x1 x2 i, ← mean_ref x0 i]
  rfl

theorem formed_ref : val_main_v34 (F := Ideal) x0 x1 x5 i = formed (x5 i) (corr x0 x1 (i 0) (i 1)) := by
  unfold formed
  rw [← corr_ref x0 x1 i]
  rfl

theorem candidate_ref : val_main_v37 (F := Ideal) x0 x1 x2 x3 x5 x6 i
    = candidate (x5 i) (x3 i) (x6 i) (hebb x0 x1 x2 (i 0) (i 1)) (corr x0 x1 (i 0) (i 1)) (mean x0 (ix1 (i 1))) := by
  unfold candidate
  rw [← formed_ref x0 x1 x5 i, ← clipped_ref x0 x1 x2 x3 x5 i]
  rfl

theorem linked_ref : val_main_v38 (F := Ideal) x0 x1 x5 i = linked (x5 i) (corr x0 x1 (i 0) (i 1)) := by
  unfold linked
  rw [← formed_ref x0 x1 x5 i]
  rfl

theorem weak_ref : val_main_v42 (F := Ideal) x0 x1 x2 x3 x5 x6 i
    = weak (x5 i) (x3 i) (x6 i) (hebb x0 x1 x2 (i 0) (i 1)) (corr x0 x1 (i 0) (i 1)) (mean x0 (ix1 (i 1))) := by
  unfold weak
  rw [← candidate_ref x0 x1 x2 x3 x5 x6 i, ← linked_ref x0 x1 x5 i]
  rfl

/-- THE NEW WEIGHTS. -/
theorem weights_ref : val_main_v44 (F := Ideal) x0 x1 x2 x3 x5 x6 = specWeights (mean x0) x0 x1 x2 x3 x6 x5 := by
  funext i
  unfold specWeights newWeight
  rw [← weak_ref x0 x1 x2 x3 x5 x6 i, ← candidate_ref x0 x1 x2 x3 x5 x6 i]
  rfl

/-- THE NEW MASK. -/
theorem mask_ref : val_main_v46 (F := Ideal) x0 x1 x2 x3 x5 x6 = specMask (mean x0) x0 x1 x2 x3 x6 x5 := by
  funext i
  unfold specMask newMask
  rw [← weak_ref x0 x1 x2 x3 x5 x6 i, ← linked_ref x0 x1 x5 i]
  rfl

/-- THE ENERGY. -/
theorem energy_ref : val_main_v26 (F := Ideal) x0 x3 = specEnergy (mean x0) x3 := by
  funext i
  unfold specEnergy energy
  rw [← absmean_ref x0 i]
  rfl

/-- THE AGES. -/
theorem ages_ref : val_main_v27 (F := Ideal) x4 x5 = specAges x4 x5 := by
  funext i
  rfl

end Cert.Synapse.Ref

end
-- ==== Proof.lean ====
/-
  A synaptic-plasticity step on a 4096 × 4096 weight matrix (Hebbian growth, metabolic decay, clipping, formation of
  new synapses from correlated pairs, elimination of weak ones, with the energy cost and the ages), computed by a
  tiled kernel and by a plain reference: at the ideal values (floats as extended reals, every operation exact) the
  two programs return the same four arrays.

  The kernel works on an 8 × 8 grid of 512 × 512 blocks. Its host prelude prepares post·contrib, the connection bits
  as words, and the column factors μ'·a and γ·|a| (a the column mean of pre); each grid point contracts the batch axis
  of two 64 × 512 blocks on the matrix unit and applies the update entry by entry; a host line after the region
  turns the mask words into bits. The reference contracts whole 64 × 4096 arrays and divides where the kernel scales
  by 1/64. Entry by entry both are one function of the inputs (PlasticityLaw: products re-associate and commute
  on the extended reals, scaling by the dyadic 1/64 is dividing by 64, a widened bit is nonzero exactly when set);
  BlockEntries reads a grid point's stores, WholeArrays and GridCover assemble the blocks into the arrays the region
  leaves, KernelValues substitutes what the prelude prepared and reads the line after the region, and
  ReferenceEntries reads the reference. No law used needs finiteness, so the precondition is never opened.
  The three frames are the generated ones (the reference's is its run with the results dropped); the ideal pass
  rewrote nothing, so preserves is trivial.
-/
import proofs.«107307_j3633542332471_2_alg».proof.Defs
import proofs.«107307_j3633542332471_2_alg».proof.Proof.Gen.Kernel
import proofs.«107307_j3633542332471_2_alg».proof.Proof.Gen.Kernel.Skeleton
import proofs.«107307_j3633542332471_2_alg».proof.Proof.Gen.Kernel.Launch
import proofs.«107307_j3633542332471_2_alg».proof.Proof.Gen.Kernel.Points
import proofs.«107307_j3633542332471_2_alg».proof.Proof.Gen.Kernel.Frame
import proofs.«107307_j3633542332471_2_alg».proof.Proof.Gen.KernelIdeal
import proofs.«107307_j3633542332471_2_alg».proof.Proof.Gen.KernelIdeal.Skeleton
import proofs.«107307_j3633542332471_2_alg».proof.Proof.Gen.KernelIdeal.Launch
import proofs.«107307_j3633542332471_2_alg».proof.Proof.Gen.KernelIdeal.Points
import proofs.«107307_j3633542332471_2_alg».proof.Proof.Gen.KernelIdeal.Frame
import proofs.«107307_j3633542332471_2_alg».proof.Proof.Gen.ReferenceIdeal
import proofs.«107307_j3633542332471_2_alg».proof.Proof.Gen.ReferenceIdeal.Run
import proofs.«107307_j3633542332471_2_alg».proof.Proof.Gen.ReferenceIdeal.Read
import proofs.«107307_j3633542332471_2_alg».proof.Proof.Gen.Pre_finite_inputs
import proofs.«107307_j3633542332471_2_alg».proof.Proof.KernelValues
import proofs.«107307_j3633542332471_2_alg».proof.Proof.ReferenceEntries
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the four results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- Both programs end with the four results at the specification's functions of inputs that agree. -/
theorem algebraic : Cert.algebraic_KernelIdeal_ReferenceIdeal := by
  intro m ρ m' ρ' _ hagree
  refine ⟨_, _, _, _, Cert.Synapse.Kernel.run m ρ, ?_⟩
  refine (θ_run Cert.ReferenceIdeal.defs _ _).mono
    (fun _ h c => ⟨(h c).1.trans ?_, (h c).2.1.trans ?_, (h c).2.2.1.trans ?_, (h c).2.2.2.1.trans ?_, (h c).2.2.2.2⟩)
    (Cert.ReferenceIdeal.Value.run (F := Ideal) m' ρ')
  · obtain ⟨a0, a1, a2, a3, a4, a5, a6⟩ := hagree c
    rw [Cert.ReferenceIdeal.Read.val_main_v44_eq, Cert.Synapse.Ref.weights_ref, a0, a1, a2, a3, a5, a6]
    rfl
  · obtain ⟨a0, a1, a2, a3, a4, a5, a6⟩ := hagree c
    rw [Cert.ReferenceIdeal.Read.val_main_v26_eq, Cert.Synapse.Ref.energy_ref, a0, a3]
    rfl
  · obtain ⟨a0, a1, a2, a3, a4, a5, a6⟩ := hagree c
    rw [Cert.ReferenceIdeal.Read.val_main_v27_eq, Cert.Synapse.Ref.ages_ref, a4, a5]
  · obtain ⟨a0, a1, a2, a3, a4, a5, a6⟩ := hagree c
    rw [Cert.ReferenceIdeal.Read.val_main_v46_eq, Cert.Synapse.Ref.mask_ref, a0, a1, a2, a3, a5, a6]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
